-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x2000x16 : Shape := ⟨4, ![8, 256, 2000, 16]⟩
abbrev S_ : Shape := ⟨0, ![]⟩

class Facts : Prop where
  bcast_S_S8x256x2000x16 : S_.BroadcastsInDim S8x256x2000x16 (![] : Fin 0 → Fin S8x256x2000x16.rank)
  reducesTo_S8x256x2000x16_S_d0_1_2_3 : S8x256x2000x16.ReducesTo [0, 1, 2, 3] S_
  h_S_ : 0 < S_.numel

variable [Facts]

def fn {F : FTy → Type} [FloatOps F] (main_arg0 : FVec F S8x256x2000x16 .f32) : IVec S_ 1 :=
  let main_v0 : FVec F S8x256x2000x16 .f32 := Host.absf main_arg0
  let main_cst : FVec F S_ .f32 := constant S_ .f32 0x7F800000#32
  let main_v1 : FVec F S8x256x2000x16 .f32 := broadcastInDim S8x256x2000x16 ![] bcast_S_S8x256x2000x16 main_cst
  let main_v2 : IVec S8x256x2000x16 1 := cmpf .olt main_v0 main_v1
  let main_c : IVec S_ 1 := constantI S_ 1 1#1
  let main_v3 : IVec S_ 1 := (fun x v => Host.reduce IntOp.andi x v reducesTo_S8x256x2000x16_S_d0_1_2_3 h_S_) main_v2 main_c
  main_v3
-- ==== Kernel.lean ====
abbrev S8x256x2000x16 : Shape := ⟨4, ![8, 256, 2000, 16]⟩
abbrev S2048x32000 : Shape := ⟨2, ![2048, 32000]⟩
abbrev S2048x16008 : Shape := ⟨2, ![2048, 16008]⟩
abbrev S32x32000 : Shape := ⟨2, ![32, 32000]⟩
abbrev S32x16008 : Shape := ⟨2, ![32, 16008]⟩
abbrev S32x2000x16 : Shape := ⟨3, ![32, 2000, 16]⟩
abbrev S32x2000x8 : Shape := ⟨3, ![32, 2000, 8]⟩
abbrev S32x1x8 : Shape := ⟨3, ![32, 1, 8]⟩
abbrev S32x2001x8 : Shape := ⟨3, ![32, 2001, 8]⟩
abbrev S8x256x16008 : Shape := ⟨3, ![8, 256, 16008]⟩

abbrev nBuf : Space → Nat
  | .hbm => 4
  | .vmem => 4
  | .smem => 0
  | _ => 0

abbrev bufTy : (tb : Table) → Fin (tcTables nBuf tb) → BufTy
  | .hbm, ⟨0, _⟩ => ⟨S8x256x2000x16, .f32⟩
  | .hbm, ⟨1, _⟩ => ⟨S2048x32000, .f32⟩
  | .hbm, ⟨2, _⟩ => ⟨S2048x16008, .f32⟩
  | .hbm, ⟨3, _⟩ => ⟨S8x256x16008, .f32⟩
  | .local _ .vmem, ⟨0, _⟩ => ⟨S32x32000, .f32⟩
  | .local _ .vmem, ⟨1, _⟩ => ⟨S32x32000, .f32⟩
  | .local _ .vmem, ⟨2, _⟩ => ⟨S32x16008, .f32⟩
  | .local _ .vmem, ⟨3, _⟩ => ⟨S32x16008, .f32⟩
  | _, _ => ⟨S8x256x2000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x16008 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x256x2000x16_S2048x32000 : S8x256x2000x16.ShapeCasts S2048x32000
  inb_S32x32000_S32x32000_0_0 : ∀ a, (![0, 0] : Fin 2 → Nat) a + S32x32000.size a ≤ S32x32000.size a
  h_S32x32000 : 0 < S32x32000.numel
  shapeCasts_S32x32000_S32x32000 : S32x32000.ShapeCasts S32x32000
  shapeCasts_S32x32000_S32x2000x16 : S32x32000.ShapeCasts S32x2000x16
  slices_S32x2000x16_o0_0_0_S32x2000x8 : S32x2000x16.Slices ![0, 0, 0] S32x2000x8
  slices_S32x2000x16_o0_0_8_S32x2000x8 : S32x2000x16.Slices ![0, 0, 8] S32x2000x8
  concatenates_S32x2000x8_S32x1x8_S32x2001x8_d1 : Shape.Concatenates [S32x2000x8, S32x1x8] S32x2001x8 1
  concatenates_S32x1x8_S32x2000x8_S32x2001x8_d1 : Shape.Concatenates [S32x1x8, S32x2000x8] S32x2001x8 1
  shapeCasts_S32x2001x8_S32x16008 : S32x2001x8.ShapeCasts S32x16008
  inb_S32x16008_S32x16008_0_0 : ∀ a, (![0, 0] : Fin 2 → Nat) a + S32x16008.size a ≤ S32x16008.size a
  h_S32x16008 : 0 < S32x16008.numel
  shapeCasts_S2048x16008_S8x256x16008 : S2048x16008.ShapeCasts S8x256x16008
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32000.size a ≤ S2048x32000.size a
  hwx0_0 : ∀ i : grid0.Coords, EltTy.bits .f32 = 32 ∨ (Rect.block (s := S2048x32000) S32x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16008.size a ≤ S2048x16008.size a
  hwx0_1 : ∀ i : grid0.Coords, EltTy.bits .f32 = 32 ∨ (Rect.block (s := S2048x16008) S32x16008.size (cc0_transform_1 i) (hinb0_1 i)).WholeWords (EltTy.packing .f32)

variable [Facts₀]

abbrev win0_0 : Pipeline.Window sig grid0 :=
  Pipeline.Window.ofSpec (Memref.whole main_v0) S32x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x16008.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x256x2000x16 : Shape := ⟨4, ![8, 256, 2000, 16]⟩
abbrev S4000 : Shape := ⟨1, ![4000]⟩
abbrev S8x256x4000x8 : Shape := ⟨4, ![8, 256, 4000, 8]⟩
abbrev S4000x8x256x8 : Shape := ⟨4, ![4000, 8, 256, 8]⟩
abbrev S_ : Shape := ⟨0, ![]⟩
abbrev S2001x8x256x8 : Shape := ⟨4, ![2001, 8, 256, 8]⟩
abbrev S4000x1 : Shape := ⟨2, ![4000, 1]⟩
abbrev S8x256x2001x8 : Shape := ⟨4, ![8, 256, 2001, 8]⟩
abbrev S8x256x16008 : Shape := ⟨3, ![8, 256, 16008]⟩

abbrev nBuf : Space → Nat
  | .hbm => 10
  | .vmem => 0
  | .smem => 0
  | _ => 0

abbrev bufTy : (tb : Table) → Fin (tcTables nBuf tb) → BufTy
  | .hbm, ⟨0, _⟩ => ⟨S8x256x2000x16, .f32⟩
  | .hbm, ⟨1, _⟩ => ⟨S4000, .i32⟩
  | .hbm, ⟨2, _⟩ => ⟨S8x256x4000x8, .f32⟩
  | .hbm, ⟨3, _⟩ => ⟨S4000x8x256x8, .f32⟩
  | .hbm, ⟨4, _⟩ => ⟨S_, .f32⟩
  | .hbm, ⟨5, _⟩ => ⟨S2001x8x256x8, .f32⟩
  | .hbm, ⟨6, _⟩ => ⟨S4000x1, .i32⟩
  | .hbm, ⟨7, _⟩ => ⟨S2001x8x256x8, .f32⟩
  | .hbm, ⟨8, _⟩ => ⟨S8x256x2001x8, .f32⟩
  | .hbm, ⟨9, _⟩ => ⟨S8x256x16008, .f32⟩
  | _, _ => ⟨S8x256x2000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S8x256x2000x16_S8x256x4000x8 : S8x256x2000x16.ShapeCasts S8x256x4000x8
  transposes_S8x256x4000x8_S4000x8x256x8_2_0_1_3 : S8x256x4000x8.Transposes [2, 0, 1, 3] S4000x8x256x8
  bcast_S_S2001x8x256x8 : S_.BroadcastsInDim S2001x8x256x8 (![] : Fin 0 → Fin S2001x8x256x8.rank)
  bcast_S4000_S4000x1_0 : S4000.BroadcastsInDim S4000x1 (![0] : Fin 1 → Fin S4000x1.rank)
  transposes_S2001x8x256x8_S8x256x2001x8_1_2_0_3 : S2001x8x256x8.Transposes [1, 2, 0, 3] S8x256x2001x8
  shapeCasts_S8x256x2001x8_S8x256x16008 : S8x256x2001x8.ShapeCasts S8x256x16008
  scatter_S2001x8x256x8_S4000x1_S4000x8x256x8_123_0_0_1_wf : ScatterDims.WF S2001x8x256x8 S4000x1 S4000x8x256x8 [1, 2, 3] [0] [0] 1

variable [Facts₀]

def scatter_S2001x8x256x8_S4000x1_S4000x8x256x8_123_0_0_1 : ScatterDims S2001x8x256x8 S4000x1 S4000x8x256x8 where
  updateWindowDims := [1, 2, 3]
  insertedWindowDims := [0]
  scatterDimsToOperandDims := [0]
  indexVectorDim := 1
  wf := scatter_S2001x8x256x8_S4000x1_S4000x8x256x8_123_0_0_1_wf

class Facts : Prop extends Facts₀ where

variable [Facts]
-- ==== Proof.FoldRow.lean ====
/-
  The overlap-add of one row, and the segment sum that computes it.

  A row holds 2000 frames of 16 samples, flat: sample `q` of frame `f` at position `16 f + q`.  Each frame is two
  half-frames of 8 samples, and consecutive frames overlap by one half-frame, so the folded row has 2001 subframes of 8:
  subframe `j` is the first half of frame `j` (when there is a frame `j`) plus the second half of frame `j - 1` (when there is
  one).  At flat output position `k = 8 j + s` that is `row (16 j + s) + row (16 (j - 1) + 8 + s)`, a missing term read as
  zero (`foldRow`).

  Cut the same row into 4000 half-frames, half-frame `n` at positions `8 n + s`; half-frame `n = 2 f + h` is half `h` of frame
  `f` and belongs to subframe `f + h = (n + 1) / 2`.  The sum over the half-frames of subframe `j` therefore has the two terms
  `n = 2 j` and `n = 2 j - 1`: it is `foldRow` (`segment_sum_eq`).  Only the commutative-monoid laws are used.
-/
import Idealize.ShloMosaic.PureOps.Ideal
import Idealize.ShloMosaic.Lib.ValueIdx

namespace Cert.Fold

open Idealize.ShloMosaic Idealize.ShloMosaic.ValueIdx

variable {M : Type*} [AddCommMonoid M]

/-- The folded row at flat position `k = 8 j + s`: sample `s` of frame `j` plus sample `8 + s` of frame `j - 1`, each when
    there is such a frame. -/
def foldRow (row : Fin 32000 → M) (k : Fin 16008) : M :=
  (if h : k.val / 8 < 2000 then row ⟨16 * (k.val / 8) + k.val % 8, by omega⟩ else 0)
    + (if h : 1 ≤ k.val / 8 then row ⟨16 * (k.val / 8 - 1) + 8 + k.val % 8, by have := k.isLt; omega⟩ else 0)

/-- A sum over 4000 half-frames is the sum over 2000 frames of the two halves. -/
theorem sum_halves (g : Fin 4000 → M) :
    ∑ n : Fin 4000, g n
      = ∑ f : Fin 2000, (g ⟨2 * f.val, by have := f.isLt; omega⟩ + g ⟨2 * f.val + 1, by have := f.isLt; omega⟩) := by
  have e := Equiv.sum_comp (finProdFinEquiv : Fin 2000 × Fin 2 ≃ Fin (2000 * 2)) g
  rw [← e, Fintype.sum_prod_type]
  refine Finset.sum_congr rfl fun f _ => ?_
  rw [Fin.sum_univ_two]
  have h0 : (finProdFinEquiv (f, (0 : Fin 2)) : Fin (2000 * 2)) = (⟨2 * f.val, by have := f.isLt; omega⟩ : Fin 4000) :=
    Fin.ext (by show (0 : Fin 2).val + 2 * f.val = 2 * f.val; simp)
  have h1 : (finProdFinEquiv (f, (1 : Fin 2)) : Fin (2000 * 2)) = (⟨2 * f.val + 1, by have := f.isLt; omega⟩ : Fin 4000) :=
    Fin.ext (by show (1 : Fin 2).val + 2 * f.val = 2 * f.val + 1; simp; omega)
  rw [h0, h1]

/-- THE SEGMENT SUM IS THE FOLD: over the half-frames whose subframe number `(n + 1) / 2` is `k / 8`, the samples at
    `8 n + k % 8` add up to the folded row at `k`. -/
theorem segment_sum_eq (row : Fin 32000 → M) (k : Fin 16008) :
    (∑ n : Fin 4000, if (((n.val + 1) / 2 : Nat) : Int) = ((k.val / 8 : Nat) : Int)
        then row ⟨8 * n.val + k.val % 8, by have := n.isLt; omega⟩ else 0)
      = foldRow row k := by
  have hk := k.isLt
  rw [sum_halves, Finset.sum_add_distrib]
  unfold foldRow
  congr 1
  · -- the first halves: frame `f` goes to subframe `f`
    by_cases h : k.val / 8 < 2000
    · rw [dif_pos h, Finset.sum_eq_single (⟨k.val / 8, h⟩ : Fin 2000)]
      · rw [if_pos (by show (((2 * (k.val / 8) + 1) / 2 : Nat) : Int) = _; congr 1; omega)]
        exact congrArg row (Fin.ext (by show 8 * (2 * (k.val / 8)) + k.val % 8 = 16 * (k.val / 8) + k.val % 8; omega))
      · intro f _ hf
        have hne : f.val ≠ k.val / 8 := fun e => hf (Fin.ext e)
        rw [if_neg]
        intro e
        have e' : (2 * f.val + 1) / 2 = k.val / 8 := Int.ofNat_inj.mp e
        omega
      · intro hx; exact absurd (Finset.mem_univ _) hx
    · rw [dif_neg h]
      refine Finset.sum_eq_zero fun f _ => ?_
      rw [if_neg]
      intro e
      have e' : (2 * f.val + 1) / 2 = k.val / 8 := Int.ofNat_inj.mp e
      have := f.isLt
      omega
  · -- the second halves: frame `f` goes to subframe `f + 1`
    by_cases h : 1 ≤ k.val / 8
    · have hj : k.val / 8 - 1 < 2000 := by omega
      rw [dif_pos h, Finset.sum_eq_single (⟨k.val / 8 - 1, hj⟩ : Fin 2000)]
      · rw [if_pos (by show (((2 * (k.val / 8 - 1) + 1 + 1) / 2 : Nat) : Int) = _; congr 1; omega)]
        exact congrArg row (Fin.ext (by
          show 8 * (2 * (k.val / 8 - 1) + 1) + k.val % 8 = 16 * (k.val / 8 - 1) + 8 + k.val % 8; omega))
      · intro f _ hf
        have hne : f.val ≠ k.val / 8 - 1 := fun e => hf (Fin.ext e)
        rw [if_neg]
        intro e
        have e' : (2 * f.val + 1 + 1) / 2 = k.val / 8 := Int.ofNat_inj.mp e
        omega
      · intro hx; exact absurd (Finset.mem_univ _) hx
    · rw [dif_neg h]
      refine Finset.sum_eq_zero fun f _ => ?_
      rw [if_neg]
      intro e
      have e' : (2 * f.val + 1 + 1) / 2 = k.val / 8 := Int.ofNat_inj.mp e
      omega

/-- The signal's flat row `(b, c)`: sample `q % 16` of frame `q / 16`. -/
def sigRow {α : Type*} (x : (⟨4, ![8, 256, 2000, 16]⟩ : Shape).Idx → α) (b : Fin 8) (c : Fin 256) : Fin 32000 → α :=
  fun q => x (ix4 b c (⟨q.val / 16, by have := q.isLt; omega⟩ : Fin 2000) (⟨q.val % 16, by omega⟩ : Fin 16))

/-- THE OVERLAP-ADD OF THE SIGNAL: entry `(b, c, k)` is the folded flat row `(b, c)` at position `k`. -/
def foldSignal (x : (⟨4, ![8, 256, 2000, 16]⟩ : Shape).Idx → M) : (⟨3, ![8, 256, 16008]⟩ : Shape).Idx → M :=
  fun i => foldRow (sigRow x (i 0) (i 1)) (i 2)

end Cert.Fold
-- ==== Proof.KernelPay.lean ====
/-
  What the kernel's body stores, entry by entry.

  The body loads a block of 32 flat rows, cuts each row into 2000 frames of 16 samples, takes the first halves `a` and the
  second halves `b` of the frames, pads `a` with a zero subframe at the end and `b` with a zero subframe in front, adds the
  two, and flattens the 2001 subframes of each row.  So entry `(p, k)` of what it stores, `k = 8 j + s`, is
  `a[p, j, s]` (zero when `j = 2000`) plus `b[p, j - 1, s]` (zero when `j = 0`): the overlap-add of row `p` of the block at
  position `k` (`Cert.Fold.foldRow`).
-/
import proofs.«165906_j61933428415564_2_alg».proof.Proof.Gen.KernelIdeal.Skeleton
import proofs.«165906_j61933428415564_2_alg».proof.Proof.FoldRow
import Idealize.ShloMosaic.Lib.Pipeline.Value
import Idealize.ShloMosaic.Lib.ValueIdx
import Idealize.ShloMosaic.PureOps.Ideal.Laws

noncomputable section

namespace Cert.KernelIdeal.Fold

open Cert.KernelIdeal Cert.KernelIdeal.Gen Idealize.ShloMosaic Idealize.ShloMosaic.ValueIdx Cert.Fold

section Layout
variable {α : Type}

/-- The flattened block at `(p, k)` is the unflattened one at subframe `k / 8`, sample `k % 8`. -/
theorem flatten_apply (Y : S32x2001x8.Idx → α) (h : S32x2001x8.ShapeCasts S32x16008) (p : Fin 32) (k : Fin 16008) :
    shapeCast S32x16008 Y h (ix2 p k)
      = Y (ix3 p (⟨k.val / 8, by have := k.isLt; omega⟩ : Fin 2001) (⟨k.val % 8, by omega⟩ : Fin 8)) := by
  refine shapeCast_apply Y h _ _ ?_
  rw [Shape.rowMajor_val_three, Shape.rowMajor_val_two]
  show (p.val * 2001 + k.val / 8) * 8 + k.val % 8 = p.val * 16008 + k.val
  omega

/-- A flat row cut into frames: sample `q` of frame `f` is at flat position `16 f + q`. -/
theorem frames_apply (x : S32x32000.Idx → α) (h : S32x32000.ShapeCasts S32x2000x16) (p : Fin 32) (f : Fin 2000) (q : Fin 16) :
    shapeCast S32x2000x16 x h (ix3 p f q)
      = x (ix2 p (⟨16 * f.val + q.val, by have := f.isLt; have := q.isLt; omega⟩ : Fin 32000)) := by
  refine shapeCast_apply x h _ _ ?_
  rw [Shape.rowMajor_val_two, Shape.rowMajor_val_three]
  show p.val * 32000 + (16 * f.val + q.val) = (p.val * 2000 + f.val) * 16 + q.val
  omega

/-- The first halves of the frames. -/
theorem firstHalf_apply (v : S32x2000x16.Idx → α) (h : S32x2000x16.Slices ![0, 0, 0] S32x2000x8)
    (p : Fin 32) (f : Fin 2000) (s : Fin 8) :
    extractStridedSlice S32x2000x8 ![0, 0, 0] v h (ix3 p f s) = v (ix3 p f (⟨s.val, by have := s.isLt; omega⟩ : Fin 16)) := by
  refine extractStridedSlice_apply ![0, 0, 0] v h _ _ fun a => ?_
  match a with
  | ⟨0, _⟩ => show p.val = 0 + p.val; omega
  | ⟨1, _⟩ => show f.val = 0 + f.val; omega
  | ⟨2, _⟩ => show s.val = 0 + s.val; omega

/-- The second halves of the frames. -/
theorem secondHalf_apply (v : S32x2000x16.Idx → α) (h : S32x2000x16.Slices ![0, 0, 8] S32x2000x8)
    (p : Fin 32) (f : Fin 2000) (s : Fin 8) :
    extractStridedSlice S32x2000x8 ![0, 0, 8] v h (ix3 p f s) = v (ix3 p f (⟨8 + s.val, by have := s.isLt; omega⟩ : Fin 16)) := by
  refine extractStridedSlice_apply ![0, 0, 8] v h _ _ fun a => ?_
  match a with
  | ⟨0, _⟩ => show p.val = 0 + p.val; omega
  | ⟨1, _⟩ => show f.val = 0 + f.val; omega
  | ⟨2, _⟩ => show 8 + s.val = 8 + s.val; rfl

/-- Padded at the end: a subframe below 2000 is the array's own. -/
theorem padEnd_lt (a : S32x2000x8.Idx → α) (z : S32x1x8.Idx → α)
    (h : Shape.Concatenates [S32x2000x8, S32x1x8] S32x2001x8 1) (p : Fin 32) (j : Fin 2001) (s : Fin 8) (hj : j.val < 2000) :
    concatenate S32x2001x8 1 [⟨S32x2000x8, a⟩, ⟨S32x1x8, z⟩] h (ix3 p j s) = a (ix3 p (⟨j.val, hj⟩ : Fin 2000) s) := by
  refine concatenate_pair_apply_left 1 a z h (ix3 p j s) rfl _ fun b => ?_
  match b with
  | ⟨0, _⟩ => rfl
  | ⟨1, _⟩ => rfl
  | ⟨2, _⟩ => rfl

/-- Padded at the end: subframe 2000 is the pad. -/
theorem padEnd_ge (a : S32x2000x8.Idx → α) (z : S32x1x8.Idx → α)
    (h : Shape.Concatenates [S32x2000x8, S32x1x8] S32x2001x8 1) (p : Fin 32) (j : Fin 2001) (s : Fin 8) (hj : 2000 ≤ j.val) :
    concatenate S32x2001x8 1 [⟨S32x2000x8, a⟩, ⟨S32x1x8, z⟩] h (ix3 p j s) = z (ix3 p (⟨0, Nat.one_pos⟩ : Fin 1) s) := by
  refine concatenate_pair_apply_right 1 a z h (ix3 p j s) rfl rfl _ (fun b hb => ?_) ?_
  · match b with
    | ⟨0, _⟩ => rfl
    | ⟨1, _⟩ => exact absurd rfl hb
    | ⟨2, _⟩ => rfl
  · show 0 + 2000 = j.val
    have := j.isLt; omega

/-- Padded in front: subframe 0 is the pad. -/
theorem padFront_zero (z : S32x1x8.Idx → α) (b : S32x2000x8.Idx → α)
    (h : Shape.Concatenates [S32x1x8, S32x2000x8] S32x2001x8 1) (p : Fin 32) (j : Fin 2001) (s : Fin 8) (hj : j.val < 1) :
    concatenate S32x2001x8 1 [⟨S32x1x8, z⟩, ⟨S32x2000x8, b⟩] h (ix3 p j s) = z (ix3 p (⟨j.val, hj⟩ : Fin 1) s) := by
  refine concatenate_pair_apply_left 1 z b h (ix3 p j s) rfl _ fun d => ?_
  match d with
  | ⟨0, _⟩ => rfl
  | ⟨1, _⟩ => rfl
  | ⟨2, _⟩ => rfl

/-- Padded in front: a subframe from 1 on is the array's, one subframe earlier. -/
theorem padFront_pos (z : S32x1x8.Idx → α) (b : S32x2000x8.Idx → α)
    (h : Shape.Concatenates [S32x1x8, S32x2000x8] S32x2001x8 1) (p : Fin 32) (j : Fin 2001) (s : Fin 8) (hj : 1 ≤ j.val) :
    concatenate S32x2001x8 1 [⟨S32x1x8, z⟩, ⟨S32x2000x8, b⟩] h (ix3 p j s)
      = b (ix3 p (⟨j.val - 1, by have := j.isLt; omega⟩ : Fin 2000) s) := by
  refine concatenate_pair_apply_right 1 z b h (ix3 p j s) rfl rfl _ (fun d hd => ?_) ?_
  · match d with
    | ⟨0, _⟩ => rfl
    | ⟨1, _⟩ => exact absurd rfl hd
    | ⟨2, _⟩ => rfl
  · show j.val - 1 + 1 = j.val
    omega

end Layout

/-- The pad is zero. -/
theorem pad_apply (i : S32x1x8.Idx) :
    (broadcast S32x1x8 (Scalar.ofBits (F := Ideal) .f32 0x00000000#32) : S32x1x8.Idx → EReal) i = 0 :=
  Ideal.ofBits_zero_f32

/-- THE STORED BLOCK AT `(p, k)`: the overlap-add of row `p` of the loaded block at position `k`. -/
theorem pay_apply (x0 : S32x32000.Idx → EReal) (p : Fin 32) (k : Fin 16008) :
    k0_pay1 (F := Ideal) x0 (ix2 p k) = foldRow (fun q => x0 (ix2 p q)) k := by
  have hk := k.isLt
  unfold k0_pay1
  refine (flatten_apply _ _ p k).trans ?_
  rw [shapeCast_self]
  unfold foldRow
  refine congrArg₂ (· + ·) ?_ ?_
  · by_cases h : k.val / 8 < 2000
    · rw [dif_pos h]
      refine (padEnd_lt _ _ _ p _ _ h).trans ((firstHalf_apply _ _ p _ _).trans ((frames_apply x0 _ p _ _).trans ?_))
      rfl
    · rw [dif_neg h]
      exact (padEnd_ge _ _ _ p _ _ (Nat.le_of_not_lt h)).trans (pad_apply _)
  · by_cases h : 1 ≤ k.val / 8
    · rw [dif_pos h]
      refine (padFront_pos _ _ _ p _ _ h).trans ((secondHalf_apply _ _ p _ _).trans ((frames_apply x0 _ p _ _).trans ?_))
      exact congrArg x0 (congrArg (ix2 p) (Fin.ext (by
        show 16 * (k.val / 8 - 1) + (8 + k.val % 8) = 16 * (k.val / 8 - 1) + 8 + k.val % 8; omega)))
    · rw [dif_neg h]
      exact (padFront_zero _ _ _ p _ _ (Nat.lt_of_not_le h)).trans (pad_apply _)

end Cert.KernelIdeal.Fold

end
-- ==== Proof.KernelValue.lean ====
/-
  The kernel's result, entry by entry.

  The kernel's program flattens the signal to 2048 flat rows of 32000 samples, runs the body on 64 blocks of 32 rows,
  each block of the output the overlap-add of the same 32 rows, and gives the 2048 folded rows back as `[8, 256, 16008]`.
  The body treats every row alone, so block `t` of the output is block `t` of ONE whole-array function, the overlap-add of
  every row (`foldRows`); the 64 blocks cover the output array; so the array ends holding that function of the flattened
  signal, and the result is the overlap-add of the signal (`Cert.Fold.foldSignal`).
-/
import proofs.«165906_j61933428415564_2_alg».proof.Proof.Gen.KernelIdeal.Frame
import proofs.«165906_j61933428415564_2_alg».proof.Proof.KernelPay
import Idealize.ShloMosaic.Lib.Pipeline.Value
import Idealize.ShloMosaic.Lib.StableHlo.Run

noncomputable section

namespace Cert.KernelIdeal.Fold

open Cert.KernelIdeal Cert.KernelIdeal.Gen Idealize.ShloMosaic Idealize.ShloMosaic.TcCoe Idealize.SL.Sem
open Idealize.ShloMosaic.ValueIdx Cert.Fold
open Idealize.ShloMosaic.Pipeline (Dat)

variable (m : (ℓ : Loc nD τ sig) → Buf (Elt Ideal) ℓ) (ρ : Dev nD → PrngReg)

/-- Every flat row folded: entry `(r, k)` is the overlap-add of row `r` at position `k`. -/
def foldRows (X : S2048x32000.Idx → EReal) : S2048x16008.Idx → EReal :=
  fun i => foldRow (fun q => X (ix2 (i 0) q)) (i 1)

theorem hz : (![0, 0] : Fin 2 → Nat) = fun _ => 0 := funext fun a => by fin_cases a <;> rfl

/-- The printed index maps, decided over the 64 points: the input's block moves with the output's along the rows, and
    neither moves along a row. -/
theorem idx_facts : ∀ t : Fin cfg0.N, win0_0.index t (0 : Fin 2) = win0_1.index t (0 : Fin 2)
    ∧ win0_0.index t (1 : Fin 2) = 0 ∧ win0_1.index t (1 : Fin 2) = 0 :=
  (by decide +kernel : ∀ t : Fin grid0.N, _)

/-- Every block of rows is some point's. -/
theorem idx_onto : ∀ q0 : Fin 64, ∃ t : Fin cfg0.N, win0_1.index t = ![q0.val, 0] :=
  (by decide +kernel : ∀ q0 : Fin 64, ∃ t : Fin grid0.N, win0_1.index t = ![q0.val, 0])

/-- One point: if the loaded block is rows `32 T …` of `X`, what the body stores at `y` is `foldRows X` at row
    `32 T + y 0`, position `y 1`. -/
theorem block_eq (X : S2048x32000.Idx → EReal) (x0 : S32x32000.Idx → EReal) (T : Nat)
    (hx : ∀ (p : Fin 32) (q : Fin 32000) (r : Fin 2048), r.val = T * 32 + p.val → x0 (ix2 p q) = X (ix2 r q))
    (y : S32x16008.Idx) (i : S2048x16008.Idx) (hi0 : (i 0).val = T * 32 + (y 0).val) (hi1 : (i 1).val = (y 1).val) :
    k0_pay1 (F := Ideal) x0 y = foldRows X i := by
  refine ((congrArg (k0_pay1 (F := Ideal) x0) (eq_ix2 y)).trans (pay_apply x0 (y 0) (y 1))).trans ?_
  unfold foldRows
  exact congrArg₂ foldRow (funext fun q => hx (y 0) q (i 0) hi0) (Fin.ext hi1.symm)

/-- WHAT POINT `t` WRITES BACK is block `t` of `foldRows` of the flattened signal as the region finds it. -/
theorem flushed1_eq (c : Dev nD) (t : Fin cfg0.N) :
    (dats m 0 c).flushed 1 t = ((cfg0.win 1).blk t).view.read (Elt Ideal) (foldRows (V m c main_v0)) := by
  show (cfg0.win 1).cut (grid0.coords t) ((dats m 0 c).after 1 t) = _
  rw [after0_1]
  unfold out0_1
  rw [View.canon_unit_zero hz]
  simp only [View.ld_unit_zero (S := S32x32000) hz]
  obtain ⟨e0, e1, e2⟩ := idx_facts t
  funext y
  show k0_pay1 (iblk m c 0 t) y = foldRows (V m c main_v0) (((cfg0.win 1).blk t).view.emb y)
  refine block_eq (V m c main_v0) (iblk m c 0 t) (win0_1.index t (0 : Fin 2)) ?_ y _ ?_ ?_
  · intro p q r hr
    show V m c main_v0 (((cfg0.win 0).blk t).view.emb (ix2 p q)) = V m c main_v0 (ix2 r q)
    refine congrArg (V m c main_v0) (funext fun a => Fin.ext ?_)
    match a with
    | ⟨0, _⟩ => show win0_0.index t (0 : Fin 2) * 32 + 1 * p.val = r.val; omega
    | ⟨1, _⟩ => show win0_0.index t (1 : Fin 2) * 32000 + 1 * q.val = q.val; omega
  · show win0_1.index t (0 : Fin 2) * 32 + 1 * (y 0).val = win0_1.index t (0 : Fin 2) * 32 + (y 0).val; omega
  · show win0_1.index t (1 : Fin 2) * 16008 + 1 * (y 1).val = (y 1).val; omega

/-- An index of the array is in point `t`'s block iff each coordinate is in the block's range on its axis. -/
theorem mem_blk1 (t : Fin cfg0.N) (i : S2048x16008.Idx) :
    i ∈ ((cfg0.win 1).blk t).view.set ↔ ∀ a : Fin 2, win0_1.index t a * S32x16008.size a ≤ (i a).val
      ∧ (i a).val < win0_1.index t a * S32x16008.size a + S32x16008.size a := by
  show i ∈ ((View.whole main_v1).slice (win0_1.rect t)).set ↔ _
  rw [View.set_slice_whole, Rect.mem_set_unit]
  exact Iff.rfl

/-- The 64 blocks cover the output array: row `r` is in the block of point `r / 32`. -/
theorem cover1 (i : S2048x16008.Idx) :
    ∃ t : Fin cfg0.N, (cfg0.win 1).flush t = true ∧ i ∈ ((cfg0.win 1).blk t).view.set := by
  have hi0 : (i 0).val < 2048 := (i 0).isLt
  have hi1 : (i 1).val < 16008 := (i 1).isLt
  obtain ⟨t, ht⟩ := idx_onto ⟨(i 0).val / 32, by omega⟩
  have q0 : win0_1.index t (0 : Fin 2) = (i 0).val / 32 := congrFun ht 0
  have q1 : win0_1.index t (1 : Fin 2) = 0 := congrFun ht 1
  refine ⟨t, flush0_1 t, ?_⟩
  rw [mem_blk1]
  intro a
  match a with
  | ⟨0, _⟩ =>
    show win0_1.index t (0 : Fin 2) * 32 ≤ (i 0).val ∧ (i 0).val < win0_1.index t (0 : Fin 2) * 32 + 32
    omega
  | ⟨1, _⟩ =>
    show win0_1.index t (1 : Fin 2) * 16008 ≤ (i 1).val ∧ (i 1).val < win0_1.index t (1 : Fin 2) * 16008 + 16008
    omega

/-- THE OUTPUT ARRAY after the region: every flat row of the region's input folded. -/
theorem final1 (c : Dev nD) : (dats m 0 c).arrAt 1 cfg0.N = foldRows (V m c main_v0) :=
  (dats m 0 c).arrAt_eq_of_cover 1 (foldRows (V m c main_v0)) (fun t _ => flushed1_eq m c t) cover1

/-- The region's input is the signal flattened to rows. -/
theorem V_main_v0 (c : Dev nD) :
    (V m c main_v0 : S2048x32000.Idx → EReal)
      = shapeCast S2048x32000 (m ((c : Thread nD τ).loc main_arg0)) shapeCasts_S8x256x2000x16_S2048x32000 := by
  show StableHlo.after hostOps0 (fun b => m (c, b)) (Proc.devRef .tc main_v0) = _
  after_results
  rfl

/-- The kernel program's result as one function of the signal. -/
def kernelTerm (x : S8x256x2000x16.Idx → EReal) : S8x256x16008.Idx → EReal :=
  shapeCast S8x256x16008 (foldRows (shapeCast S2048x32000 x shapeCasts_S8x256x2000x16_S2048x32000))
    shapeCasts_S2048x16008_S8x256x16008

/-- The result buffer after the lines that follow the region. -/
theorem tail_eq (c : Dev nD) :
    Pipeline.afterTail₀ cfgs (dats m) 0 (V0 m) [hostOps1] c main_v2 = kernelTerm (m ((c : Thread nD τ).loc main_arg0)) := by
  unfold Pipeline.afterTail₀
  show StableHlo.after hostOps1 _ (Proc.devRef .tc main_v2) = _
  after_results
  rw [(Pipeline.withArrays_arr spec0 launch0.win.arr_inj c _ _ 1).trans (final1 m c), V_main_v0]
  rfl

/-- THE KERNEL PROGRAM'S RUN, READ: every weakly fair execution terminates with the result at `kernelTerm` of the signal
    as launched, the signal unchanged. -/
theorem run : θ_run defs (onTc (τ := τ) (main (F := Ideal))) ⟨m, fun _ => 0, ρ⟩ fun r => ∀ c : Dev nD,
      r.2.mem ((c : Thread nD τ).loc main_v2) = kernelTerm (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

section Layout
variable {α : Type}

/-- The folded rows given back as `[8, 256, 16008]`: entry `(b, c, k)` is row `256 b + c`, position `k`. -/
theorem unrows_apply (Y : S2048x16008.Idx → α) (h : S2048x16008.ShapeCasts S8x256x16008) (b : Fin 8) (c : Fin 256) (k : Fin 16008) :
    shapeCast S8x256x16008 Y h (ix3 b c k)
      = Y (ix2 (⟨256 * b.val + c.val, by have := b.isLt; have := c.isLt; omega⟩ : Fin 2048) k) := by
  refine shapeCast_apply Y h _ _ ?_
  rw [Shape.rowMajor_val_two, Shape.rowMajor_val_three]
  show (256 * b.val + c.val) * 16008 + k.val = (b.val * 256 + c.val) * 16008 + k.val
  omega

/-- The signal flattened to rows: sample `q` of row `256 b + c` is sample `q % 16` of frame `q / 16` of `(b, c)`. -/
theorem rows_apply (x : S8x256x2000x16.Idx → α) (h : S8x256x2000x16.ShapeCasts S2048x32000) (b : Fin 8) (c : Fin 256)
    (r : Fin 2048) (hr : r.val = 256 * b.val + c.val) (q : Fin 32000) :
    shapeCast S2048x32000 x h (ix2 r q) = sigRow x b c q := by
  unfold sigRow
  refine shapeCast_apply x h _ _ ?_
  rw [Shape.rowMajor_val_four, Shape.rowMajor_val_two]
  show ((b.val * 256 + c.val) * 2000 + q.val / 16) * 16 + q.val % 16 = r.val * 32000 + q.val
  omega

end Layout

/-- THE KERNEL PROGRAM COMPUTES THE OVERLAP-ADD of the signal. -/
theorem kernelTerm_eq (x : S8x256x2000x16.Idx → EReal) : kernelTerm x = foldSignal x := by
  funext i
  rw [eq_ix3 i]
  unfold kernelTerm foldSignal
  refine (unrows_apply _ _ (i 0) (i 1) (i 2)).trans ?_
  unfold foldRows
  exact congrArg₂ foldRow (funext fun q => rows_apply x _ (i 0) (i 1) _ rfl q) rfl

end Cert.KernelIdeal.Fold

end
-- ==== Proof.RefRun.lean ====
/-
  The reference's run, read back.

  The reference is nine host operations in a row: the table of segment numbers, the signal re-cut into half-frames
  `[8, 256, 4000, 8]`, the half-frame axis moved to the front, a zero array `[2001, 8, 256, 8]`, the table as a column, the
  scatter-add of the 4000 half-frame slabs onto the zero array at the table's numbers, the subframe axis moved back, and
  the result flattened to `[8, 256, 16008]`.  Every weakly fair execution runs them in order and ends with the result
  buffer at the operations' composed function (`refTerm`) of the signal as launched, the signal unchanged.
-/
import proofs.«165906_j61933428415564_2_alg».proof.Proof.Gen.ReferenceIdeal
import Idealize.ShloMosaic.Lib.StableHlo.Run

noncomputable section

namespace Cert.ReferenceIdeal.Fold

open Cert.ReferenceIdeal Cert.ReferenceIdeal.Gen Idealize.ShloMosaic Idealize.ShloMosaic.TcCoe Idealize.SL.Sem Idealize.ShloMosaic.StableHlo

variable {F : FTy → Type} [FloatOps F]

/-- The table of segment numbers as a column `[4000, 1]`. -/
def segColumn : IVec S4000x1 32 :=
  broadcastInDim S4000x1 ![0] bcast_S4000_S4000x1_0 (fun i => lit0 (S4000.rowMajor i))

/-- The half-frame slabs: the signal re-cut into half-frames, the half-frame axis in front. -/
def slabs (x : FVec F S8x256x2000x16 .f32) : FVec F S4000x8x256x8 .f32 :=
  transpose S4000x8x256x8 [2, 0, 1, 3] (shapeCast S8x256x4000x8 x shapeCasts_S8x256x2000x16_S8x256x4000x8)
    transposes_S8x256x4000x8_S4000x8x256x8_2_0_1_3

/-- The zero array the slabs are added onto. -/
def zeros : FVec F S2001x8x256x8 .f32 :=
  broadcastInDim S2001x8x256x8 ![] bcast_S_S2001x8x256x8 (constant S_ .f32 0x00000000#32)

/-- The reference's result as one function of the signal. -/
def refTerm (x : FVec F S8x256x2000x16 .f32) : FVec F S8x256x16008 .f32 :=
  shapeCast S8x256x16008
    (transpose S8x256x2001x8 [1, 2, 0, 3]
      (Host.scatterAdd scatter_S2001x8x256x8_S4000x1_S4000x8x256x8_123_0_0_1 (zeros (F := F)) segColumn (slabs x))
      transposes_S2001x8x256x8_S8x256x2001x8_1_2_0_3)
    shapeCasts_S8x256x2001x8_S8x256x16008

/-- @main's 9 operations, in order. -/
abbrev ops : List (HloOp τ sig (Elt F)) :=
  [ nullary main_c (fun i => lit0 (S4000.rowMajor i)),
    reshape main_arg0 main_v0 rfl shapeCasts_S8x256x2000x16_S8x256x4000x8,
    unary main_v0 main_v1 ((transpose S4000x8x256x8 [2, 0, 1, 3] · transposes_S8x256x4000x8_S4000x8x256x8_2_0_1_3) : (⟨S8x256x4000x8, .f32⟩ : BufTy).Contents (Elt F) → (⟨S4000x8x256x8, .f32⟩ : BufTy).Contents (Elt F)),
    nullary main_cst (constant S_ .f32 0x00000000#32),
    unary main_cst main_v2 (broadcastInDim S2001x8x256x8 ![] bcast_S_S2001x8x256x8 : (⟨S_, .f32⟩ : BufTy).Contents (Elt F) → (⟨S2001x8x256x8, .f32⟩ : BufTy).Contents (Elt F)),
    unary main_c main_v3 (broadcastInDim S4000x1 ![0] bcast_S4000_S4000x1_0 : (⟨S4000, .i32⟩ : BufTy).Contents (Elt F) → (⟨S4000x1, .i32⟩ : BufTy).Contents (Elt F)),
    ternary main_v2 main_v3 main_v1 main_v4 ((fun x i u => Host.scatterAdd scatter_S2001x8x256x8_S4000x1_S4000x8x256x8_123_0_0_1 x i u) : (⟨S2001x8x256x8, .f32⟩ : BufTy).Contents (Elt F) → (⟨S4000x1, .i32⟩ : BufTy).Contents (Elt F) → (⟨S4000x8x256x8, .f32⟩ : BufTy).Contents (Elt F) → (⟨S2001x8x256x8, .f32⟩ : BufTy).Contents (Elt F)),
    unary main_v4 main_v5 ((transpose S8x256x2001x8 [1, 2, 0, 3] · transposes_S2001x8x256x8_S8x256x2001x8_1_2_0_3) : (⟨S2001x8x256x8, .f32⟩ : BufTy).Contents (Elt F) → (⟨S8x256x2001x8, .f32⟩ : BufTy).Contents (Elt F)),
    reshape main_v5 main_v6 rfl shapeCasts_S8x256x2001x8_S8x256x16008 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., reshape_bufs_sub .., unary_bufs_sub .., nullary_bufs_sub .., unary_bufs_sub .., unary_bufs_sub ..,
    ternary_bufs_sub .., unary_bufs_sub .., reshape_bufs_sub ..⟩

/-- On every device, for any float values, from any memory with zero counters: every weakly fair execution of @main
    terminates with the result at `refTerm` of the signal as launched, and the signal unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v6).trans (by after_results; rfl),
      (h c main_arg0).trans (by after_results)⟩)
    (run_seq scopedRefs_eq scopedSems_eq defs main (fun _ => ops) main_eq (fun _ => ops_sub) m ρ)

end Cert.ReferenceIdeal.Fold

end
-- ==== Proof.IndexTable.lean ====
/-
  The segment numbers of the overlap-add.

  Subframe `n` of the 4000 half-frames (frame `n / 2`, half `n % 2`) is added onto output subframe `(n + 1) / 2`: the first
  half of frame `f` onto subframe `f`, the second half onto subframe `f + 1`.  The reference carries these numbers as a
  table of 4000 words; every entry of the table is that number.
-/
import proofs.«165906_j61933428415564_2_alg».proof.ReferenceIdeal

namespace Cert.ReferenceIdeal.Fold

open Idealize.ShloMosaic Cert.ReferenceIdeal

/-- Every entry of the table is the word for `(n + 1) / 2`. -/
theorem lit0_eq : ∀ n : Fin 4000, lit0 n = BitVec.ofNat 32 ((n.val + 1) / 2) := by
  decide +kernel

/-- Read as a signed integer, entry `n` is `(n + 1) / 2`. -/
theorem lit0_toInt (n : Fin 4000) : (lit0 n).toInt = (((n.val + 1) / 2 : Nat) : Int) := by
  rw [lit0_eq n]
  have hp : (2 : Nat) ^ 32 = 4294967296 := by decide
  have hk : (n.val + 1) / 2 < 4294967296 := by have := n.isLt; omega
  have hm : (BitVec.ofNat 32 ((n.val + 1) / 2)).toNat = (n.val + 1) / 2 := by
    rw [BitVec.toNat_ofNat, hp, Nat.mod_eq_of_lt hk]
  have hlt : 2 * (BitVec.ofNat 32 ((n.val + 1) / 2)).toNat < 2 ^ 32 := by
    rw [hm, hp]; have := n.isLt; omega
  rw [BitVec.toInt_eq_toNat_of_lt hlt, hm]

end Cert.ReferenceIdeal.Fold
-- ==== Proof.LibSlabScatter.lean ====
/-
  A scatter-add of whole slabs along a list of slab numbers, read by coordinates.

  The operand is an array `[N, A, B, C]`, the updates are `E` slabs `[A, B, C]` stacked as `[E, A, B, C]`, and a column
  `[E, 1]` carries, for each update slab `e`, the number of the operand slab it is added onto.  The number is read as a
  signed integer and is not clamped: a slab whose number is negative or at least `N` is dropped.  Inside a slab nothing
  moves: entry `(a, b, c)` of update slab `e` lands on entry `(a, b, c)` of operand slab `idx e`.  So, over the extended
  reals, entry `(n, a, b, c)` of the result is the operand's entry plus the sum, over the update slabs whose number is
  `n`, of their entries `(a, b, c)`.
-/
import Idealize.ShloMosaic.PureOps.Ideal
import Idealize.ShloMosaic.Lib.ValueIdx

noncomputable section

namespace Idealize.ShloMosaic.SlabScatter

open Idealize.ShloMosaic Idealize.ShloMosaic.ValueIdx

/-- The dimension numbers of a scatter of update slabs `[E, A, B, C]` at a column of slab numbers `[E, 1]` onto
    `[N, A, B, C]`. -/
abbrev slabDims (N A B C E : Nat)
    (wf : ScatterDims.WF ⟨4, ![N, A, B, C]⟩ ⟨2, ![E, 1]⟩ ⟨4, ![E, A, B, C]⟩ [1, 2, 3] [0] [0] 1) :
    ScatterDims ⟨4, ![N, A, B, C]⟩ ⟨2, ![E, 1]⟩ ⟨4, ![E, A, B, C]⟩ where
  updateWindowDims := [1, 2, 3]
  insertedWindowDims := [0]
  scatterDimsToOperandDims := [0]
  indexVectorDim := 1
  wf := wf

/-- The column entry update slab `e` reads its slab number from. -/
abbrev colIdx {E : Nat} (e : Fin E) : (⟨2, ![E, 1]⟩ : Shape).Idx := ix2 e (⟨0, Nat.one_pos⟩ : Fin 1)

section
variable {N A B C E w : Nat}
  (wf : ScatterDims.WF ⟨4, ![N, A, B, C]⟩ ⟨2, ![E, 1]⟩ ⟨4, ![E, A, B, C]⟩ [1, 2, 3] [0] [0] 1)
  (idx : IVec ⟨2, ![E, 1]⟩ w) (j : (⟨4, ![E, A, B, C]⟩ : Shape).Idx)

/-- On the slab axis the window starts at the slab number the update's column entry carries. -/
theorem start_slab : (slabDims N A B C E wf).start j idx 0 = (idx (colIdx (E := E) (j 0))).toInt := by
  unfold ScatterDims.start
  rw [dif_pos (show (0 : Fin 4) ∈ (slabDims N A B C E wf).scatterDimsToOperandDims from List.mem_singleton.mpr rfl)]
  have hsi : (slabDims N A B C E wf).siIdx j ⟨List.idxOf (0 : Fin 4) (slabDims N A B C E wf).scatterDimsToOperandDims,
      List.idxOf_lt_length_iff.2 (List.mem_singleton.mpr rfl)⟩ = colIdx (E := E) (j 0) := by
    funext b; refine Fin.ext ?_
    match b with
    | ⟨0, _⟩ => rfl
    | ⟨1, _⟩ => rfl
  rw [hsi]

/-- On the three axes inside a slab the window starts at zero. -/
theorem start_inner (a : Fin 4) (ha : a ≠ 0) : (slabDims N A B C E wf).start j idx a = 0 := by
  unfold ScatterDims.start
  rw [dif_neg (show a ∉ (slabDims N A B C E wf).scatterDimsToOperandDims from fun h => ha (List.mem_singleton.mp h))]

/-- The slab axis is inserted: the window has no coordinate on it. -/
theorem window_slab : (slabDims N A B C E wf).window j 0 = 0 := by
  unfold ScatterDims.window
  rw [dif_neg (show (0 : Fin 4) ∉ (slabDims N A B C E wf).sKept by
    simp [ScatterDims.sKept, Shape.kept, List.mem_filter])]

/-- Inside a slab the window coordinate is the update's own coordinate. -/
theorem window_inner1 : (slabDims N A B C E wf).window j 1 = (j 1).val := by
  unfold ScatterDims.window
  rw [dif_pos (show (1 : Fin 4) ∈ (slabDims N A B C E wf).sKept by
    simp [ScatterDims.sKept, Shape.kept, List.mem_filter])]
  rfl
theorem window_inner2 : (slabDims N A B C E wf).window j 2 = (j 2).val := by
  unfold ScatterDims.window
  rw [dif_pos (show (2 : Fin 4) ∈ (slabDims N A B C E wf).sKept by
    simp [ScatterDims.sKept, Shape.kept, List.mem_filter])]
  rfl
theorem window_inner3 : (slabDims N A B C E wf).window j 3 = (j 3).val := by
  unfold ScatterDims.window
  rw [dif_pos (show (3 : Fin 4) ∈ (slabDims N A B C E wf).sKept by
    simp [ScatterDims.sKept, Shape.kept, List.mem_filter])]
  rfl

/-- WHERE AN UPDATE ENTRY LANDS: on operand entry `i` exactly when its slab's number is `i`'s slab and its coordinates
    inside the slab are `i`'s. -/
theorem lands_iff (i : (⟨4, ![N, A, B, C]⟩ : Shape).Idx) :
    (slabDims N A B C E wf).resultIdx? j idx = some i ↔
      (idx (colIdx (E := E) (j 0))).toInt = ((i 0).val : Int) ∧ (j 1).val = (i 1).val ∧ (j 2).val = (i 2).val
        ∧ (j 3).val = (i 3).val := by
  have hs0 := start_slab wf idx j
  have hs1 := start_inner wf idx j 1 (by decide)
  have hs2 := start_inner wf idx j 2 (by decide)
  have hs3 := start_inner wf idx j 3 (by decide)
  have hw0 := window_slab wf j
  have hw1 := window_inner1 wf j
  have hw2 := window_inner2 wf j
  have hw3 := window_inner3 wf j
  have hi0 : (i 0).val < N := (i 0).isLt
  have hi1 : (i 1).val < A := (i 1).isLt
  have hi2 : (i 2).val < B := (i 2).isLt
  have hi3 : (i 3).val < C := (i 3).isLt
  unfold ScatterDims.resultIdx?
  constructor
  · intro h
    split at h
    · rename_i hall
      have e := Option.some.inj h
      have e0 : ((slabDims N A B C E wf).start j idx 0 + ((slabDims N A B C E wf).window j 0 : Nat)).toNat = (i 0).val :=
        congrArg Fin.val (congrFun e 0)
      have e1 : ((slabDims N A B C E wf).start j idx 1 + ((slabDims N A B C E wf).window j 1 : Nat)).toNat = (i 1).val :=
        congrArg Fin.val (congrFun e 1)
      have e2 : ((slabDims N A B C E wf).start j idx 2 + ((slabDims N A B C E wf).window j 2 : Nat)).toNat = (i 2).val :=
        congrArg Fin.val (congrFun e 2)
      have e3 : ((slabDims N A B C E wf).start j idx 3 + ((slabDims N A B C E wf).window j 3 : Nat)).toNat = (i 3).val :=
        congrArg Fin.val (congrFun e 3)
      have h0 := (hall 0).1
      rw [hs0, hw0] at e0 h0
      rw [hs1, hw1] at e1
      rw [hs2, hw2] at e2
      rw [hs3, hw3] at e3
      refine ⟨?_, ?_, ?_, ?_⟩ <;> omega
    · exact absurd h (by simp)
  · rintro ⟨g0, g1, g2, g3⟩
    have hj1 : (j 1).val < A := (j 1).isLt
    have hall : ∀ a, 0 ≤ (slabDims N A B C E wf).start j idx a + ((slabDims N A B C E wf).window j a : Nat)
        ∧ (slabDims N A B C E wf).start j idx a + ((slabDims N A B C E wf).window j a : Nat)
          < ((⟨4, ![N, A, B, C]⟩ : Shape).size a : Nat) := by
      intro a
      match a with
      | ⟨0, _⟩ =>
        show 0 ≤ (slabDims N A B C E wf).start j idx 0 + ((slabDims N A B C E wf).window j 0 : Nat)
          ∧ (slabDims N A B C E wf).start j idx 0 + ((slabDims N A B C E wf).window j 0 : Nat) < (N : Int)
        rw [hs0, hw0]; omega
      | ⟨1, _⟩ =>
        show 0 ≤ (slabDims N A B C E wf).start j idx 1 + ((slabDims N A B C E wf).window j 1 : Nat)
          ∧ (slabDims N A B C E wf).start j idx 1 + ((slabDims N A B C E wf).window j 1 : Nat) < (A : Int)
        rw [hs1, hw1]; omega
      | ⟨2, _⟩ =>
        show 0 ≤ (slabDims N A B C E wf).start j idx 2 + ((slabDims N A B C E wf).window j 2 : Nat)
          ∧ (slabDims N A B C E wf).start j idx 2 + ((slabDims N A B C E wf).window j 2 : Nat) < (B : Int)
        rw [hs2, hw2]; omega
      | ⟨3, _⟩ =>
        show 0 ≤ (slabDims N A B C E wf).start j idx 3 + ((slabDims N A B C E wf).window j 3 : Nat)
          ∧ (slabDims N A B C E wf).start j idx 3 + ((slabDims N A B C E wf).window j 3 : Nat) < (C : Int)
        rw [hs3, hw3]; omega
    rw [dif_pos hall]
    refine congrArg some (funext fun a => Fin.ext ?_)
    match a with
    | ⟨0, _⟩ =>
      show ((slabDims N A B C E wf).start j idx 0 + ((slabDims N A B C E wf).window j 0 : Nat)).toNat = (i 0).val
      rw [hs0, hw0]; omega
    | ⟨1, _⟩ =>
      show ((slabDims N A B C E wf).start j idx 1 + ((slabDims N A B C E wf).window j 1 : Nat)).toNat = (i 1).val
      rw [hs1, hw1]; omega
    | ⟨2, _⟩ =>
      show ((slabDims N A B C E wf).start j idx 2 + ((slabDims N A B C E wf).window j 2 : Nat)).toNat = (i 2).val
      rw [hs2, hw2]; omega
    | ⟨3, _⟩ =>
      show ((slabDims N A B C E wf).start j idx 3 + ((slabDims N A B C E wf).window j 3 : Nat)).toNat = (i 3).val
      rw [hs3, hw3]; omega

end

/-- THE SLAB SCATTER-ADD READ AT `(n, a, b, c)`: the operand's entry plus, over the update slabs, the entry `(a, b, c)` of
    each slab whose number is `n`. -/
theorem scatterAdd_slab_apply {N A B C E w : Nat}
    (wf : ScatterDims.WF ⟨4, ![N, A, B, C]⟩ ⟨2, ![E, 1]⟩ ⟨4, ![E, A, B, C]⟩ [1, 2, 3] [0] [0] 1)
    (x : (⟨4, ![N, A, B, C]⟩ : Shape).Idx → EReal) (idx : IVec ⟨2, ![E, 1]⟩ w)
    (upd : (⟨4, ![E, A, B, C]⟩ : Shape).Idx → EReal) (n : Fin N) (a : Fin A) (b : Fin B) (c : Fin C) :
    Ideal.hostScatterAdd (slabDims N A B C E wf) x idx upd (ix4 n a b c)
      = x (ix4 n a b c)
        + ∑ e : Fin E, if (idx (colIdx e)).toInt = (n.val : Int) then upd (ix4 e a b c) else 0 := by
  unfold Ideal.hostScatterAdd
  refine congrArg (x (ix4 n a b c) + ·) ?_
  rw [← Finset.sum_filter]
  refine Finset.sum_nbij' (fun j => (j 0 : Fin E)) (fun e => ix4 e a b c) ?_ ?_ ?_ ?_ ?_
  · intro j hj
    exact Finset.mem_filter.mpr ⟨Finset.mem_univ _, ((lands_iff wf idx j (ix4 n a b c)).mp (Finset.mem_filter.mp hj).2).1⟩
  · intro e he
    exact Finset.mem_filter.mpr ⟨Finset.mem_univ _,
      (lands_iff wf idx (ix4 e a b c) (ix4 n a b c)).mpr ⟨(Finset.mem_filter.mp he).2, rfl, rfl, rfl⟩⟩
  · intro j hj
    obtain ⟨-, g1, g2, g3⟩ := (lands_iff wf idx j (ix4 n a b c)).mp (Finset.mem_filter.mp hj).2
    funext d
    refine Fin.ext ?_
    match d with
    | ⟨0, _⟩ => rfl
    | ⟨1, _⟩ => exact g1.symm
    | ⟨2, _⟩ => exact g2.symm
    | ⟨3, _⟩ => exact g3.symm
  · intro e _
    rfl
  · intro j hj
    obtain ⟨-, g1, g2, g3⟩ := (lands_iff wf idx j (ix4 n a b c)).mp (Finset.mem_filter.mp hj).2
    refine congrArg upd (funext fun d => Fin.ext ?_)
    match d with
    | ⟨0, _⟩ => rfl
    | ⟨1, _⟩ => exact g1
    | ⟨2, _⟩ => exact g2
    | ⟨3, _⟩ => exact g3

end Idealize.ShloMosaic.SlabScatter

end
-- ==== Proof.RefValue.lean ====
/-
  The reference's result, entry by entry.

  Entry `(b, c, k)` of the reference's result, `k = 8 j + s`, is entry `(j, b, c, s)` of the scatter-add: zero plus the sum,
  over the half-frame slabs `n` whose segment number is `j`, of slab `n`'s entry `(b, c, s)`.  Slab `n`'s entry `(b, c, s)` is
  the signal's sample `8 n + s` of the flat row `(b, c)`, and the segment number of slab `n` is `(n + 1) / 2`.  So the entry
  is the segment sum of that row, which is its overlap-add (`Cert.Fold.segment_sum_eq`).
-/
import proofs.«165906_j61933428415564_2_alg».proof.Proof.RefRun
import proofs.«165906_j61933428415564_2_alg».proof.Proof.IndexTable
import proofs.«165906_j61933428415564_2_alg».proof.Proof.LibSlabScatter
import proofs.«165906_j61933428415564_2_alg».proof.Proof.FoldRow
import Idealize.ShloMosaic.Lib.Pipeline.Value
import Idealize.ShloMosaic.Lib.ValueIdx
import Idealize.ShloMosaic.PureOps.Ideal.Laws

noncomputable section

namespace Cert.ReferenceIdeal.Fold

open Cert.ReferenceIdeal Cert.ReferenceIdeal.Gen Idealize.ShloMosaic Idealize.ShloMosaic.ValueIdx
open Idealize.ShloMosaic.SlabScatter Cert.Fold

section Layout
variable {α : Type}

/-- The flattened result at `(b, c, k)` is the unflattened one at subframe `k / 8`, sample `k % 8`. -/
theorem flatten_apply (Y : S8x256x2001x8.Idx → α) (h : S8x256x2001x8.ShapeCasts S8x256x16008)
    (b : Fin 8) (c : Fin 256) (k : Fin 16008) :
    shapeCast S8x256x16008 Y h (ix3 b c k)
      = Y (ix4 b c (⟨k.val / 8, by have := k.isLt; omega⟩ : Fin 2001) (⟨k.val % 8, by omega⟩ : Fin 8)) := by
  refine shapeCast_apply Y h _ _ ?_
  rw [Shape.rowMajor_val_four, Shape.rowMajor_val_three]
  show ((b.val * 256 + c.val) * 2001 + k.val / 8) * 8 + k.val % 8 = (b.val * 256 + c.val) * 16008 + k.val
  omega

/-- Moving the subframe axis back: entry `(b, c, j, s)` is entry `(j, b, c, s)`. -/
theorem unstack_apply (Z : S2001x8x256x8.Idx → α) (h : S2001x8x256x8.Transposes [1, 2, 0, 3] S8x256x2001x8)
    (b : Fin 8) (c : Fin 256) (j : Fin 2001) (s : Fin 8) :
    transpose S8x256x2001x8 [1, 2, 0, 3] Z h (ix4 b c j s) = Z (ix4 j b c s) := by
  refine transpose_apply [1, 2, 0, 3] Z h _ _ fun a => ?_
  match a with
  | ⟨0, _⟩ => rfl
  | ⟨1, _⟩ => rfl
  | ⟨2, _⟩ => rfl
  | ⟨3, _⟩ => rfl

/-- Moving the half-frame axis to the front: entry `(n, b, c, s)` is entry `(b, c, n, s)`. -/
theorem stack_apply (W : S8x256x4000x8.Idx → α) (h : S8x256x4000x8.Transposes [2, 0, 1, 3] S4000x8x256x8)
    (n : Fin 4000) (b : Fin 8) (c : Fin 256) (s : Fin 8) :
    transpose S4000x8x256x8 [2, 0, 1, 3] W h (ix4 n b c s) = W (ix4 b c n s) := by
  refine transpose_apply [2, 0, 1, 3] W h _ _ fun a => ?_
  match a with
  | ⟨0, _⟩ => rfl
  | ⟨1, _⟩ => rfl
  | ⟨2, _⟩ => rfl
  | ⟨3, _⟩ => rfl

/-- Re-cutting frames into half-frames: sample `s` of half-frame `n` is sample `(n % 2) * 8 + s` of frame `n / 2`. -/
theorem recut_apply (x : S8x256x2000x16.Idx → α) (h : S8x256x2000x16.ShapeCasts S8x256x4000x8)
    (b : Fin 8) (c : Fin 256) (n : Fin 4000) (s : Fin 8) :
    shapeCast S8x256x4000x8 x h (ix4 b c n s)
      = x (ix4 b c (⟨n.val / 2, by have := n.isLt; omega⟩ : Fin 2000) (⟨n.val % 2 * 8 + s.val, by have := s.isLt; omega⟩ : Fin 16)) := by
  refine shapeCast_apply x h _ _ ?_
  rw [Shape.rowMajor_val_four, Shape.rowMajor_val_four]
  show ((b.val * 256 + c.val) * 2000 + n.val / 2) * 16 + (n.val % 2 * 8 + s.val) = ((b.val * 256 + c.val) * 4000 + n.val) * 8 + s.val
  omega

end Layout

/-- Slab `n`'s entry `(b, c, s)` is sample `8 n + s` of the signal's flat row `(b, c)`. -/
theorem slabs_apply (x : S8x256x2000x16.Idx → EReal) (n : Fin 4000) (b : Fin 8) (c : Fin 256) (s : Fin 8) :
    slabs (F := Ideal) x (ix4 n b c s) = sigRow x b c ⟨8 * n.val + s.val, by have := n.isLt; have := s.isLt; omega⟩ := by
  unfold slabs sigRow
  refine (stack_apply _ _ n b c s).trans ((recut_apply x _ b c n s).trans ?_)
  refine congrArg x (funext fun a => Fin.ext ?_)
  match a with
  | ⟨0, _⟩ => rfl
  | ⟨1, _⟩ => rfl
  | ⟨2, _⟩ => show n.val / 2 = (8 * n.val + s.val) / 16; have := s.isLt; omega
  | ⟨3, _⟩ => show n.val % 2 * 8 + s.val = (8 * n.val + s.val) % 16; have := s.isLt; omega

/-- The array the slabs are added onto is zero everywhere. -/
theorem zeros_apply (i : S2001x8x256x8.Idx) : zeros (F := Ideal) i = (0 : EReal) := by
  unfold zeros
  refine (broadcastInDim_apply (![] : Fin 0 → Fin S2001x8x256x8.rank) _ _ i ix0 (fun a => a.elim0)).trans ?_
  exact Ideal.ofBits_zero_f32

/-- Row `n` of the column of segment numbers is entry `n` of the table. -/
theorem segColumn_apply (n : Fin 4000) : segColumn (colIdx n) = lit0 n := by
  unfold segColumn
  refine (broadcastInDim_apply (![0] : Fin 1 → Fin S4000x1.rank) _ _ (colIdx n) (ix1 n) (fun a => ?_)).trans ?_
  · match a with
    | ⟨0, _⟩ => rfl
  · exact congrArg lit0 (Fin.ext (Shape.rowMajor_val_one _))

/-- The scatter's dimension numbers are those of a slab scatter. -/
theorem scatter_eq : scatter_S2001x8x256x8_S4000x1_S4000x8x256x8_123_0_0_1
    = slabDims 2001 8 256 8 4000 scatter_S2001x8x256x8_S4000x1_S4000x8x256x8_123_0_0_1_wf := rfl

/-- THE REFERENCE'S RESULT AT `(b, c, k)`: the overlap-add of the signal's flat row `(b, c)` at position `k`. -/
theorem refTerm_apply (x : S8x256x2000x16.Idx → EReal) (b : Fin 8) (c : Fin 256) (k : Fin 16008) :
    refTerm (F := Ideal) x (ix3 b c k) = foldRow (sigRow x b c) k := by
  unfold refTerm
  refine (flatten_apply _ _ b c k).trans ((unstack_apply _ _ b c _ _).trans ?_)
  show Ideal.hostScatterAdd scatter_S2001x8x256x8_S4000x1_S4000x8x256x8_123_0_0_1 (zeros (F := Ideal)) segColumn
    (slabs (F := Ideal) x) (ix4 (⟨k.val / 8, by have := k.isLt; omega⟩ : Fin 2001) b c (⟨k.val % 8, by omega⟩ : Fin 8)) = _
  rw [scatter_eq, scatterAdd_slab_apply, zeros_apply, zero_add, ← segment_sum_eq]
  refine Finset.sum_congr rfl fun n _ => ?_
  rw [segColumn_apply, lit0_toInt, slabs_apply]

/-- THE REFERENCE COMPUTES THE OVERLAP-ADD of the signal. -/
theorem refTerm_eq (x : S8x256x2000x16.Idx → EReal) : refTerm (F := Ideal) x = foldSignal x := by
  funext i
  rw [eq_ix3 i]
  exact refTerm_apply x (i 0) (i 1) (i 2)

end Cert.ReferenceIdeal.Fold

end
-- ==== Proof.lean ====
/-
  An overlap-add with half-frame hop, as one pass over rows against a segment sum.

  The signal is `[8, 256, 2000, 16]`: for each of 8 x 256 rows, 2000 frames of 16 samples.  Consecutive frames overlap by
  half a frame, so a row folds to 2001 subframes of 8 samples: subframe `j` is the first half of frame `j` (if there is a
  frame `j`) plus the second half of frame `j - 1` (if there is one).  The result is `[8, 256, 16008]`
  (`Cert.Fold.foldSignal`, Proof/FoldRow.lean).

  The kernel's program flattens each row to 32000 samples, and on each of 64 blocks of 32 rows adds the first halves padded
  with a zero subframe at the end to the second halves padded with a zero subframe in front (Proof/KernelPay.lean; the
  blocks put together, and the two flattenings around them, in Proof/KernelValue.lean).  The reference cuts each row into
  4000 half-frames and scatter-adds half-frame `n` onto subframe `(n + 1) / 2` of a zero array, the subframe numbers given
  as a table of 4000 words (its run in Proof/RefRun.lean, the table in Proof/IndexTable.lean, a scatter-add of slabs read
  entry by entry in Proof/LibSlabScatter.lean, the result entry by entry in Proof/RefValue.lean).  Both are the same
  function over the extended reals: a sum of at most two terms, taken in either order, onto zero — only the laws of a
  commutative monoid are used, so the inputs' finiteness is never needed.

  The kernel's idealization rewrote nothing, so it is preserved trivially; the two kernel programs' frames are the
  generated frame runs, and the reference's frame is its run with the result dropped.
-/
import proofs.«165906_j61933428415564_2_alg».proof.Defs
import proofs.«165906_j61933428415564_2_alg».proof.Proof.Gen.Kernel
import proofs.«165906_j61933428415564_2_alg».proof.Proof.Gen.Kernel.Frame
import proofs.«165906_j61933428415564_2_alg».proof.Proof.Gen.KernelIdeal
import proofs.«165906_j61933428415564_2_alg».proof.Proof.Gen.KernelIdeal.Frame
import proofs.«165906_j61933428415564_2_alg».proof.Proof.Gen.ReferenceIdeal
import proofs.«165906_j61933428415564_2_alg».proof.Proof.Gen.Pre_finite_inputs
import proofs.«165906_j61933428415564_2_alg».proof.Proof.KernelValue
import proofs.«165906_j61933428415564_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves the signal as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves the signal as launched: its run, the result dropped. -/
theorem frame_referenceIdeal : Cert.frame_ReferenceIdeal := fun m ρ _ =>
  (θ_run Cert.ReferenceIdeal.defs _ _).mono (fun _ h c => (h c).2) (Cert.ReferenceIdeal.Fold.run (F := Ideal) m ρ)

/-- The idealization rewrote no operation. -/
theorem preserves : Cert.preserves_Kernel_KernelIdeal := trivial

/-- Over the extended reals, from memories that agree on the signal, both programs end with the overlap-add of the
    signal in their result buffers. -/
theorem algebraic : Cert.algebraic_KernelIdeal_ReferenceIdeal := by
  intro m ρ m' ρ' _ hagree
  refine ⟨fun c => Cert.Fold.foldSignal (M := EReal) (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.Fold.kernelTerm_eq _), (h c).2⟩)
      (Cert.KernelIdeal.Fold.run m ρ)
  · refine (θ_run Cert.ReferenceIdeal.defs _ _).mono (fun _ h c => ⟨(h c).1.trans ?_, (h c).2⟩)
      (Cert.ReferenceIdeal.Fold.run (F := Ideal) m' ρ')
    rw [hagree c]
    exact Cert.ReferenceIdeal.Fold.refTerm_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
